-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S2304 : Shape := ⟨1, ![2304]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S8x1024x768 .f32) (main_arg1 : FVec F S2304x768 .f32) (main_arg2 : FVec F S2304 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S8x1024x768 : Shape := ⟨3, ![8, 1024, 768]⟩
abbrev S2304x768 : Shape := ⟨2, ![2304, 768]⟩
abbrev S2304 : Shape := ⟨1, ![2304]⟩
abbrev S8192x768 : Shape := ⟨2, ![8192, 768]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S96x1024x64 : Shape := ⟨3, ![96, 1024, 64]⟩
abbrev S1x1024x64 : Shape := ⟨3, ![1, 1024, 64]⟩
abbrev S1024x64 : Shape := ⟨2, ![1024, 64]⟩
abbrev S1024x1024 : Shape := ⟨2, ![1024, 1024]⟩
abbrev S8x1024x12x64 : Shape := ⟨4, ![8, 1024, 12, 64]⟩

abbrev nBuf : Space → Nat
  | .hbm => 20
  | .vmem => 14
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S8192x768, .f32⟩
  | .hbm, ⟨4, _⟩ => ⟨S8192x2304, .bf16⟩
  | .hbm, ⟨5, _⟩ => ⟨S8x1024x3x12x64, .bf16⟩
  | .hbm, ⟨6, _⟩ => ⟨S3x8x12x1024x64, .bf16⟩
  | .hbm, ⟨7, _⟩ => ⟨S1x8x12x1024x64, .bf16⟩
  | .hbm, ⟨8, _⟩ => ⟨S8x12x1024x64, .bf16⟩
  | .hbm, ⟨9, _⟩ => ⟨S1x8x12x1024x64, .bf16⟩
  | .hbm, ⟨10, _⟩ => ⟨S8x12x1024x64, .bf16⟩
  | .hbm, ⟨11, _⟩ => ⟨S1x8x12x1024x64, .bf16⟩
  | .hbm, ⟨12, _⟩ => ⟨S8x12x1024x64, .bf16⟩
  | .hbm, ⟨13, _⟩ => ⟨S96x1024x64, .bf16⟩
  | .hbm, ⟨14, _⟩ => ⟨S96x1024x64, .bf16⟩
  | .hbm, ⟨15, _⟩ => ⟨S96x1024x64, .bf16⟩
  | .hbm, ⟨16, _⟩ => ⟨S96x1024x64, .f32⟩
  | .hbm, ⟨17, _⟩ => ⟨S8x12x1024x64, .f32⟩
  | .hbm, ⟨18, _⟩ => ⟨S8x1024x12x64, .f32⟩
  | .hbm, ⟨19, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S2304x768, .f32⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .f32⟩
  | .local _ .vmem, ⟨13, _⟩ => ⟨S1x1024x64, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x1024x768_S8192x768 : S8x1024x768.ShapeCasts S8192x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S2304x768_S2304x768_0_0 : ∀ a, (![0, 0] : Fin 2 → Nat) a + S2304x768.size a ≤ S2304x768.size a
  h_S2304x768 : 0 < S2304x768.numel
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S8x1024x3x12x64 : S8192x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  shapeCasts_S8x12x1024x64_S96x1024x64 : S8x12x1024x64.ShapeCasts S96x1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  iota_S1024x1024_d0_w32 : S1024x1024.Iotas .tc 32 [0]
  iota_S1024x1024_d1_w32 : S1024x1024.Iotas .tc 32 [1]
  shapeCasts_S1024x64_S1x1024x64 : S1024x64.ShapeCasts S1x1024x64
  shapeCasts_S96x1024x64_S8x12x1024x64 : S96x1024x64.ShapeCasts S8x12x1024x64
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S512x768_S2304x768_S512x2304_1_1_0_0_n_n_wf : DotDims.WF S512x768 S2304x768 S512x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S96x1024x64.size a
  hwx1_0 : ∀ i : grid1.Coords, EltTy.bits .bf16 = 32 ∨ (Rect.block (s := S96x1024x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S96x1024x64.size a
  hwx1_1 : ∀ i : grid1.Coords, EltTy.bits .bf16 = 32 ∨ (Rect.block (s := S96x1024x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S96x1024x64.size a
  hwx1_2 : ∀ i : grid1.Coords, EltTy.bits .bf16 = 32 ∨ (Rect.block (s := S96x1024x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S96x1024x64.size a
  hwx1_3 : ∀ i : grid1.Coords, EltTy.bits .f32 = 32 ∨ (Rect.block (s := S96x1024x64) S1x1024x64.size (cc1_transform_3 i) (hinb1_3 i)).WholeWords (EltTy.packing .f32)

variable [Facts₀]

def dot_S512x768_S2304x768_S512x2304_1_1_0_0_n_n : DotDims S512x768 S2304x768 S512x2304 where
  lhsContracting := [1]
  rhsContracting := [1]
  lhsNonContracting := [0]
  rhsNonContracting := [0]
  lhsBatch := []
  rhsBatch := []
  wf := dot_S512x768_S2304x768_S512x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S2304 : Shape := ⟨1, ![2304]⟩
abbrev S_ : Shape := ⟨0, ![]⟩
abbrev S8x1024x2304 : Shape := ⟨3, ![8, 1024, 2304]⟩
abbrev S1x1x2304 : Shape := ⟨3, ![1, 1, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S1024x1024 : Shape := ⟨2, ![1024, 1024]⟩
abbrev S8x1024x12x64 : Shape := ⟨4, ![8, 1024, 12, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x1024x2304, .f32⟩
  | .hbm, ⟨8, _⟩ => ⟨S1x1x2304, .f32⟩
  | .hbm, ⟨9, _⟩ => ⟨S8x1024x2304, .f32⟩
  | .hbm, ⟨10, _⟩ => ⟨S8x1024x2304, .f32⟩
  | .hbm, ⟨11, _⟩ => ⟨S8x1024x3x12x64, .f32⟩
  | .hbm, ⟨12, _⟩ => ⟨S3x8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S1x8x12x1024x64, .f32⟩
  | .hbm, ⟨18, _⟩ => ⟨S8x12x1024x64, .f32⟩
  | .hbm, ⟨19, _⟩ => ⟨S8x12x1024x1024, .f32⟩
  | .hbm, ⟨20, _⟩ => ⟨S8x12x1024x1024, .f32⟩
  | .hbm, ⟨21, _⟩ => ⟨S8x12x1024x1024, .f32⟩
  | .hbm, ⟨22, _⟩ => ⟨S_, .i1⟩
  | .hbm, ⟨23, _⟩ => ⟨S1024x1024, .i1⟩
  | .hbm, ⟨24, _⟩ => ⟨S1024x1024, .i32⟩
  | .hbm, ⟨25, _⟩ => ⟨S_, .i32⟩
  | .hbm, ⟨26, _⟩ => ⟨S1024x1024, .i32⟩
  | .hbm, ⟨27, _⟩ => ⟨S1024x1024, .i32⟩
  | .hbm, ⟨28, _⟩ => ⟨S1024x1024, .i32⟩
  | .hbm, ⟨29, _⟩ => ⟨S1024x1024, .i1⟩
  | .hbm, ⟨30, _⟩ => ⟨S_, .i1⟩
  | .hbm, ⟨31, _⟩ => ⟨S1024x1024, .i1⟩
  | .hbm, ⟨32, _⟩ => ⟨S1024x1024, .i1⟩
  | .hbm, ⟨33, _⟩ => ⟨S_, .f32⟩
  | .hbm, ⟨34, _⟩ => ⟨S8x12x1024x1024, .f32⟩
  | .hbm, ⟨35, _⟩ => ⟨S8x12x1024x1024, .f32⟩
  | .hbm, ⟨36, _⟩ => ⟨S_, .f32⟩
  | .hbm, ⟨37, _⟩ => ⟨S8x12x1024x1024, .i1⟩
  | .hbm, ⟨38, _⟩ => ⟨S8x12x1024x1024, .f32⟩
  | .hbm, ⟨39, _⟩ => ⟨S8x12x1024x1024, .f32⟩
  | .hbm, ⟨40, _⟩ => ⟨S8x12x1024x64, .f32⟩
  | .hbm, ⟨41, _⟩ => ⟨S8x1024x12x64, .f32⟩
  | .hbm, ⟨42, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_v19 : Ref sig .tc := ⟨.hbm, 35, rfl⟩
abbrev main_cst_1 : Ref sig .tc := ⟨.hbm, 36, rfl⟩
abbrev main_call2_v0 : Ref sig .tc := ⟨.hbm, 37, rfl⟩
abbrev main_call2_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  bcast_S_S1024x1024 : S_.BroadcastsInDim S1024x1024 (![] : Fin 0 → Fin S1024x1024.rank)
  bcast_S1024x1024_S8x12x1024x1024_2_3 : S1024x1024.BroadcastsInDim S8x12x1024x1024 (![2, 3] : Fin 2 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.KRun.lean ====
/-
  The kernel program's run with its result array named.

  The program is five segments: a reshape of the input, the projection region, the host's re-layout of the
  projected rows into query, key and value arrays, the attention region, and the host's re-layout of the
  attention output.  The run of the segments leaves every unscoped buffer at the last boundary's contents;
  here that is read at the result buffer as well as at the three arguments.
-/
import proofs.«164023_j66924180406850_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's
    contents and the three arguments as launched. -/
theorem run_named : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v16 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.KRun

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Payload.lean ====
/-
  The two kernel bodies as arithmetic, on the extended reals.

  The projection body multiplies a block of 512 input rows by the transposed weight matrix and adds the bias:
  entry (p, o) is  Σ_c x(p, c) · W(o, c) + b(o).
  The attention body takes one head's query, key and value blocks (1024 positions, 64 features):
  entry (t, d) is  Σ_s w(t, s) · v(s, d)  with  w(t, s) = max ((Σ_e q(t, e) · k(s, e)) · σ, 0)  where
  position s is not after position t, and 0 otherwise.  Changes of float format are the identity on the
  extended reals, and a matrix product into a zero accumulator is the plain sum of products.
-/
import proofs.«164023_j66924180406850_1_alg».proof.Proof.Gen.KernelIdeal.Skeleton
import proofs.«164023_j66924180406850_1_alg».proof.Proof.LibDense
import proofs.«164023_j66924180406850_1_alg».proof.Proof.LibRowBlocks
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.CausalRelu

open Idealize.ShloMosaic Idealize.ShloMosaic.ValueIdx

/-- A rank-2 array of extended reals. -/
abbrev A2 (a b : ℕ) : Type := (⟨2, ![a, b]⟩ : Shape).Idx → EReal
/-- A rank-3 array of extended reals. -/
abbrev A3 (a b c : ℕ) : Type := (⟨3, ![a, b, c]⟩ : Shape).Idx → EReal
/-- A rank-1 array of extended reals. -/
abbrev A1 (a : ℕ) : Type := (⟨1, ![a]⟩ : Shape).Idx → EReal

/-- One entry of the affine projection: row `r` of `x` against row `o` of `W`, plus the bias at `o`. -/
def projAt {n : ℕ} (x : A2 n 768) (W : A2 2304 768) (b : A1 2304) (r : Fin n) (o : Fin 2304) : EReal :=
  (∑ c : Fin 768, x (ix2 r c) * W (ix2 o c)) + b (ix1 o)

/-- The projection as an array. -/
def proj {n : ℕ} (x : A2 n 768) (W : A2 2304 768) (b : A1 2304) : A2 n 2304 :=
  fun i => projAt x W b ⟨(i 0).val, idx2_lt0 i⟩ ⟨(i 1).val, idx2_lt1 i⟩

theorem proj_apply {n : ℕ} (x : A2 n 768) (W : A2 2304 768) (b : A1 2304) (r : Fin n) (o : Fin 2304) :
    proj x W b (ix2 r o) = projAt x W b r o := rfl

/-- The weight position `t` gives position `s`: the rectified scaled score where `s` is not after `t`. -/
def weight (σ : EReal) (dotp : EReal) (t s : Fin 1024) : EReal :=
  Scalar.select (IntOp.cmpi .sge (BitVec.ofNat 32 t.val) (BitVec.ofNat 32 s.val)) (max (dotp * σ) 0) 0

/-- One entry of the causal rectified attention of group `g`. -/
def attnAt {n : ℕ} (σ : EReal) (q k v : A3 n 1024 64) (g : Fin n) (t : Fin 1024) (d : Fin 64) : EReal :=
  ∑ s : Fin 1024, weight σ (∑ e : Fin 64, q (ix3 g t e) * k (ix3 g s e)) t s * v (ix3 g s d)

/-- The attention as an array. -/
def attn {n : ℕ} (σ : EReal) (q k v : A3 n 1024 64) : A3 n 1024 64 :=
  fun i => attnAt σ q k v ⟨(i 0).val, (i 0).isLt⟩ ⟨(i 1).val, (i 1).isLt⟩ ⟨(i 2).val, (i 2).isLt⟩

theorem attn_apply {n : ℕ} (σ : EReal) (q k v : A3 n 1024 64) (g : Fin n) (t : Fin 1024) (d : Fin 64) :
    attn σ q k v (ix3 g t d) = attnAt σ q k v g t d := rfl

/-- The projection's entry depends on one row of `x` only. -/
theorem projAt_congr {n n' : ℕ} (x : A2 n 768) (x' : A2 n' 768) (W W' : A2 2304 768) (b b' : A1 2304)
    (r : Fin n) (r' : Fin n') (o : Fin 2304) (hx : ∀ c, x' (ix2 r' c) = x (ix2 r c))
    (hW : ∀ o c, W' (ix2 o c) = W (ix2 o c)) (hb : ∀ o, b' (ix1 o) = b (ix1 o)) :
    projAt x' W' b' r' o = projAt x W b r o := by
  simp only [projAt, hx, hW, hb]

/-- The attention's entry depends on one group only. -/
theorem attnAt_congr {n n' : ℕ} (σ : EReal) (q k v : A3 n 1024 64) (q' k' v' : A3 n' 1024 64) (g : Fin n) (g' : Fin n')
    (hq : ∀ a e, q' (ix3 g' a e) = q (ix3 g a e)) (hk : ∀ a e, k' (ix3 g' a e) = k (ix3 g a e))
    (hv : ∀ a e, v' (ix3 g' a e) = v (ix3 g a e)) (t : Fin 1024) (d : Fin 64) :
    attnAt σ q' k' v' g' t d = attnAt σ q k v g t d := by
  simp only [attnAt, hq, hk, hv]

/-- The matrix unit's `l · rᵀ` into a zero accumulator, operands of any float formats, read at `(q, d)`. -/
theorem matmul_abT {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ φ₁) (r : FVec Ideal ⟨2, ![N, K]⟩ φ₂)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (Cert.RowBlocks.abT_sum D h1 h2 h3 h4 h5 h6 l r q d)

end Cert.CausalRelu

namespace Cert.KernelIdeal.Body

open Cert.KernelIdeal Cert.KernelIdeal.Gen Cert.CausalRelu
open Idealize.ShloMosaic Idealize.ShloMosaic.ValueIdx

/-- The scale the attention body multiplies the scores by: the float word of one eighth. -/
abbrev σK : EReal := Ideal.ofBits .f32 0x3E000000#32

/-- The projection body's stored value at `(p, o)`. -/
theorem proj_pay_apply (x0 : Vec Ideal S512x768 .f32) (x1 : Vec Ideal S2304x768 .f32) (x2 : Vec Ideal S2304 .f32)
    (p : Fin 512) (o : Fin 2304) :
    k0_pay1 (F := Ideal) x0 x1 x2 (ix2 p o) = projAt x0 x1 x2 p o := by
  unfold k0_pay1
  show matmul (F := Ideal) dot_S512x768_S2304x768_S512x2304_1_1_0_0_n_n none
        (truncf .bf16 (shapeCast S512x768 x0 shapeCasts_S512x768_S512x768) bitsLt_bf16_f32) (truncf .bf16 x1 bitsLt_bf16_f32)
        (constant S512x2304 .f32 0x00000000#32) (ix2 p o)
      + broadcastTo S512x2304 (shapeCast S1x2304 x2 shapeCasts_S2304_S1x2304) broadcasts_S1x2304_S512x2304 (ix2 p o) = _
  rw [shapeCast_self]
  refine congrArg₂ (· + ·) ?_ ?_
  · exact matmul_abT dot_S512x768_S2304x768_S512x2304_1_1_0_0_n_n rfl rfl rfl rfl rfl rfl none _ _ p o
  · exact (broadcastTo_1b_ab_apply _ _ p o).trans (shapeCast_a_1a_apply x2 _ 0 o)

/-- The attention body's stored value at `(u, t, d)`. -/
theorem attn_pay_apply (x0 x1 x2 : Vec Ideal S1x1024x64 .bf16) (u : Fin 1) (t : Fin 1024) (d : Fin 64) :
    k1_pay1 (F := Ideal) x0 x1 x2 (ix3 u t d) = attnAt σK x0 x1 x2 0 t d := by
  unfold k1_pay1
  refine (shapeCast_ab_1ab_apply _ _ u t d).trans ?_
  rw [Cert.Dense.matmul_zero_eq_mm dot_S1024x1024_S1024x64_S1024x64_1_0_0_1_n_n rfl rfl rfl rfl rfl rfl none, Cert.Dense.mm_apply]
  unfold attnAt
  refine Finset.sum_congr rfl fun s _ => ?_
  refine congrArg₂ (· * ·) ?_ (shapeCast_1ab_ab_apply x2 _ s d)
  show Scalar.select (IntOp.cmpi .sge (iota .tc S1024x1024 32 [0] iota_S1024x1024_d0_w32 (ix2 t s)) (iota .tc S1024x1024 32 [1] iota_S1024x1024_d1_w32 (ix2 t s)))
      (max (matmul (F := Ideal) dot_S1024x64_S1024x64_S1024x1024_1_1_0_0_n_n none (shapeCast S1024x64 x0 shapeCasts_S1x1024x64_S1024x64)
          (shapeCast S1024x64 x1 shapeCasts_S1x1024x64_S1024x64) (constant S1024x1024 .f32 0x00000000#32) (ix2 t s) * σK) (Ideal.ofBits .f32 0x00000000#32))
      (Ideal.ofBits .f32 0x00000000#32) = _
  rw [iota_single_apply, iota_single_apply, Ideal.ofBits_zero_f32,
    matmul_abT dot_S1024x64_S1024x64_S1024x1024_1_1_0_0_n_n rfl rfl rfl rfl rfl rfl none]
  unfold weight
  refine congrArg (fun z => Scalar.select _ (max (z * σK) 0) 0) ?_
  exact Finset.sum_congr rfl fun e _ => congrArg₂ (· * ·) (shapeCast_1ab_ab_apply x0 _ t e) (shapeCast_1ab_ab_apply x1 _ s e)

end Cert.KernelIdeal.Body

end
-- ==== Proof.Region0.lean ====
/-
  The projection region: what the array of projected rows holds after the sixteen grid points.

  Grid point `t` reads rows 512·t … 512·t + 511 of the reshaped input, the whole weight matrix and the whole
  bias, and writes back rows 512·t … 512·t + 511 of the result.  Each written block is that block of one
  array, the projection of the input rows, and the sixteen blocks tile the result.
-/
import proofs.«164023_j66924180406850_1_alg».proof.Proof.Gen.KernelIdeal.Frame
import proofs.«164023_j66924180406850_1_alg».proof.Proof.Payload

set_option maxRecDepth 16384

noncomputable section

namespace Cert.KernelIdeal.Region0

open Cert.KernelIdeal Cert.KernelIdeal.Gen Cert.KernelIdeal.Body Cert.CausalRelu
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices at grid point `t`: the input rows and the output rows move with `t`, the weights and the
    bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The body's stored block, entry by entry, against the projection of whole arrays: the loaded blocks are
    rows 512·τ … of `X`, all of `W` and all of `B`. -/
theorem proj_block (x0 : Vec Ideal S512x768 .f32) (x1 : Vec Ideal S2304x768 .f32) (x2 : Vec Ideal S2304 .f32)
    (X : A2 8192 768) (W : A2 2304 768) (B : A1 2304) (τ' : ℕ) (hτ : τ' < 16)
    (h0 : ∀ (p : Fin 512) (c : Fin 768) (hp : τ' * 512 + p.val < 8192), x0 (ix2 p c) = X (ix2 ⟨τ' * 512 + p.val, hp⟩ c))
    (h1 : ∀ (o : Fin 2304) (c : Fin 768), x1 (ix2 o c) = W (ix2 o c)) (h2 : ∀ o : Fin 2304, x2 (ix1 o) = B (ix1 o))
    (j : S512x2304.Idx) (i : S8192x2304.Idx) (hi0 : (i 0).val = τ' * 512 + (j 0).val) (hi1 : (i 1).val = (j 1).val) :
    k0_pay1 (F := Ideal) x0 x1 x2 j = proj X W B i := by
  obtain ⟨p, o, rfl⟩ : ∃ (p : Fin 512) (o : Fin 2304), j = ix2 p o := ⟨j 0, j 1, eq_ix2 j⟩
  have hτp : τ' * 512 + p.val < 8192 := by have := p.isLt; omega
  have hi : i = ix2 (⟨τ' * 512 + p.val, hτp⟩ : Fin 8192) o := funext fun a => Fin.ext (by
    match a with
    | ⟨0, _⟩ => exact hi0
    | ⟨1, _⟩ => exact hi1)
  rw [hi, proj_pay_apply, proj_apply]
  exact projAt_congr X x0 W x1 B x2 _ p o (fun c => h0 p c hτp) h1 h2

/-- What grid point `t` writes back is block `t` of the projection of the arrays as the region finds them. -/
theorem flushed_eq (c : Dev nD) (t : Fin cfg0.N) :
    (dat0 (F := Ideal) V c).flushed 3 t
      = ((cfg0.win 3).blk t).view.read (Elt Ideal) (proj (V c main_v0) (V c main_arg1) (V c main_arg2)) := by
  show (cfg0.win 3).cut (grid0.coords t) ((dat0 (F := Ideal) V c).after 3 t) = _
  rw [after0_3]
  unfold out0_3
  rw [View.canon_unit_zero hz2]
  simp only [View.ld_unit_zero (S := S512x768) hz2, View.ld_unit_zero (S := S2304x768) hz2, View.ld_unit_zero (S := S2304) hz1]
  obtain ⟨e0, e1, e2, e3, e4, e5, e6⟩ := idx_facts t
  have hN : t.val < 16 := lt_of_lt_of_eq t.isLt N_0
  funext j
  show k0_pay1 (F := Ideal) (iblk0 V c 0 t) (iblk0 V c 1 t) (iblk0 V c 2 t) j
      = proj (V c main_v0) (V c main_arg1) (V c main_arg2) (((cfg0.win 3).blk t).view.emb j)
  refine proj_block (iblk0 V c 0 t) (iblk0 V c 1 t) (iblk0 V c 2 t) (V c main_v0) (V c main_arg1) (V c main_arg2) t.val hN ?_ ?_ ?_ j
    (((cfg0.win 3).blk t).view.emb j) ?_ ?_
  · intro p k hp
    show V c main_v0 (((cfg0.win 0).blk t).view.emb (ix2 p k)) = V c main_v0 _
    refine congrArg (V c main_v0) (funext fun a => Fin.ext ?_)
    match a with
    | ⟨0, _⟩ => show win0_0.index t (0 : Fin 2) * 512 + 1 * p.val = t.val * 512 + p.val; omega
    | ⟨1, _⟩ => show win0_0.index t (1 : Fin 2) * 768 + 1 * k.val = k.val; omega
  · intro o k
    show V c main_arg1 (((cfg0.win 1).blk t).view.emb (ix2 o k)) = V c main_arg1 _
    refine congrArg (V c main_arg1) (funext fun a => Fin.ext ?_)
    match a with
    | ⟨0, _⟩ => show win0_1.index t (0 : Fin 2) * 2304 + 1 * o.val = o.val; omega
    | ⟨1, _⟩ => show win0_1.index t (1 : Fin 2) * 768 + 1 * k.val = k.val; omega
  · intro o
    show V c main_arg2 (((cfg0.win 2).blk t).view.emb (ix1 o)) = V c main_arg2 _
    refine congrArg (V c main_arg2) (funext fun a => Fin.ext ?_)
    match a with
    | ⟨0, _⟩ => show win0_2.index t (0 : Fin 1) * 2304 + 1 * o.val = o.val; omega
  · show win0_3.index t (0 : Fin 2) * 512 + 1 * (j 0).val = t.val * 512 + (j 0).val; omega
  · show win0_3.index t (1 : Fin 2) * 2304 + 1 * (j 1).val = (j 1).val; omega

/-- An index of the result is in point `t`'s block iff each coordinate is in the block's range on its axis. -/
theorem mem_blk (t : Fin cfg0.N) (i : S8192x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v1).slice (win0_3.rect t)).set ↔ _
  rw [View.set_slice_whole, Rect.mem_set_unit]
  exact Iff.rfl

/-- Every row of the result is in the block of the point its row number divided by 512 names. -/
theorem cover (i : S8192x2304.Idx) : ∃ t : Fin cfg0.N, (cfg0.win 3).flush t = true ∧ i ∈ ((cfg0.win 3).blk t).view.set := by
  have hi0 : (i 0).val < 8192 := (i 0).isLt
  have hi1 : (i 1).val < 2304 := (i 1).isLt
  have hN := N_0
  let t : Fin cfg0.N := ⟨(i 0).val / 512, by show (i 0).val / 512 < grid0.N; omega⟩
  obtain ⟨e0, e1, e2, e3, e4, e5, e6⟩ := idx_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-- The projected rows after the region: the projection of the arrays as the region finds them. -/
theorem final (c : Dev nD) :
    (dat0 (F := Ideal) V c).arrAt 3 cfg0.N = proj (V c main_v0) (V c main_arg1) (V c main_arg2) :=
  (dat0 (F := Ideal) V c).arrAt_eq_of_cover 3 _ (fun t _ => flushed_eq V c t) cover

end Cert.KernelIdeal.Region0

end
-- ==== Proof.Region1.lean ====
/-
  The attention region: what the array of head outputs holds after the ninety-six grid points.

  Grid point `t` reads group `t` (one batch entry's one head) of the query, key and value arrays and writes
  back group `t` of the result.  Each written block is that block of one array, the causal rectified
  attention of the three arrays, and the ninety-six blocks tile the result.
-/
import proofs.«164023_j66924180406850_1_alg».proof.Proof.Gen.KernelIdeal.Frame
import proofs.«164023_j66924180406850_1_alg».proof.Proof.Payload

set_option maxRecDepth 16384

noncomputable section

namespace Cert.KernelIdeal.Region1

open Cert.KernelIdeal Cert.KernelIdeal.Gen Cert.KernelIdeal.Body Cert.CausalRelu
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The block indices at grid point `t`: every window is at group `t`. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The body's stored block, entry by entry, against the attention of whole arrays: the loaded blocks are
    group `g` of `Q`, `K` and `U`. -/
theorem attn_block (x0 x1 x2 : Vec Ideal S1x1024x64 .bf16) (Q K U : A3 96 1024 64) (g : Fin 96)
    (h0 : ∀ (a : Fin 1024) (e : Fin 64), x0 (ix3 (0 : Fin 1) a e) = Q (ix3 g a e))
    (h1 : ∀ (a : Fin 1024) (e : Fin 64), x1 (ix3 (0 : Fin 1) a e) = K (ix3 g a e))
    (h2 : ∀ (a : Fin 1024) (e : Fin 64), x2 (ix3 (0 : Fin 1) a e) = U (ix3 g a e))
    (j : S1x1024x64.Idx) (i : S96x1024x64.Idx) (hi0 : (i 0).val = g.val) (hi1 : (i 1).val = (j 1).val)
    (hi2 : (i 2).val = (j 2).val) :
    k1_pay1 (F := Ideal) x0 x1 x2 j = attn σK Q K U i := by
  obtain ⟨u, t, d, rfl⟩ : ∃ (u : Fin 1) (t : Fin 1024) (d : Fin 64), j = ix3 u t d := ⟨j 0, j 1, j 2, eq_ix3 j⟩
  obtain ⟨g', t', d', rfl⟩ : ∃ (g' : Fin 96) (t' : Fin 1024) (d' : Fin 64), i = ix3 g' t' d' := ⟨i 0, i 1, i 2, eq_ix3 i⟩
  have hg : g' = g := Fin.ext hi0
  have ht : t' = t := Fin.ext hi1
  have hd : d' = d := Fin.ext hi2
  subst hg ht hd
  rw [attn_pay_apply, attn_apply]
  exact attnAt_congr σK Q K U x0 x1 x2 g' 0 h0 h1 h2 t' d'

/-- What grid point `t` writes back is block `t` of the attention of the arrays as the region finds them. -/
theorem flushed_eq (c : Dev nD) (t : Fin cfg1.N) :
    (dat1 (F := Ideal) V c).flushed 3 t
      = ((cfg1.win 3).blk t).view.read (Elt Ideal) (attn σK (V c main_v10) (V c main_v11) (V c main_v12)) := by
  show (cfg1.win 3).cut (grid1.coords t) ((dat1 (F := Ideal) V c).after 3 t) = _
  rw [after1_3]
  unfold out1_3
  rw [View.canon_unit_zero hz3]
  simp only [View.ld_unit_zero (S := S1x1024x64) hz3]
  obtain ⟨a0, a1, a2, b0, b1, b2, c0, c1, c2, d0, d1, d2⟩ := idx_facts t
  have hN : t.val < 96 := lt_of_lt_of_eq t.isLt N_1
  funext j
  show k1_pay1 (F := Ideal) (iblk1 V c 0 t) (iblk1 V c 1 t) (iblk1 V c 2 t) j
      = attn σK (V c main_v10) (V c main_v11) (V c main_v12) (((cfg1.win 3).blk t).view.emb j)
  refine attn_block (iblk1 V c 0 t) (iblk1 V c 1 t) (iblk1 V c 2 t) (V c main_v10) (V c main_v11) (V c main_v12) ⟨t.val, hN⟩ ?_ ?_ ?_ j
    (((cfg1.win 3).blk t).view.emb j) ?_ ?_ ?_
  · intro a e
    show V c main_v10 (((cfg1.win 0).blk t).view.emb (ix3 (0 : Fin 1) a e)) = V c main_v10 _
    refine congrArg (V c main_v10) (funext fun ax => Fin.ext ?_)
    match ax with
    | ⟨0, _⟩ => show win1_0.index t (0 : Fin 3) * 1 + 1 * 0 = t.val; omega
    | ⟨1, _⟩ => show win1_0.index t (1 : Fin 3) * 1024 + 1 * a.val = a.val; omega
    | ⟨2, _⟩ => show win1_0.index t (2 : Fin 3) * 64 + 1 * e.val = e.val; omega
  · intro a e
    show V c main_v11 (((cfg1.win 1).blk t).view.emb (ix3 (0 : Fin 1) a e)) = V c main_v11 _
    refine congrArg (V c main_v11) (funext fun ax => Fin.ext ?_)
    match ax with
    | ⟨0, _⟩ => show win1_1.index t (0 : Fin 3) * 1 + 1 * 0 = t.val; omega
    | ⟨1, _⟩ => show win1_1.index t (1 : Fin 3) * 1024 + 1 * a.val = a.val; omega
    | ⟨2, _⟩ => show win1_1.index t (2 : Fin 3) * 64 + 1 * e.val = e.val; omega
  · intro a e
    show V c main_v12 (((cfg1.win 2).blk t).view.emb (ix3 (0 : Fin 1) a e)) = V c main_v12 _
    refine congrArg (V c main_v12) (funext fun ax => Fin.ext ?_)
    match ax with
    | ⟨0, _⟩ => show win1_2.index t (0 : Fin 3) * 1 + 1 * 0 = t.val; omega
    | ⟨1, _⟩ => show win1_2.index t (1 : Fin 3) * 1024 + 1 * a.val = a.val; omega
    | ⟨2, _⟩ => show win1_2.index t (2 : Fin 3) * 64 + 1 * e.val = e.val; omega
  · have hj : (j 0).val < 1 := (j 0).isLt
    show win1_3.index t (0 : Fin 3) * 1 + 1 * (j 0).val = t.val; omega
  · show win1_3.index t (1 : Fin 3) * 1024 + 1 * (j 1).val = (j 1).val; omega
  · show win1_3.index t (2 : Fin 3) * 64 + 1 * (j 2).val = (j 2).val; omega

/-- An index of the result is in point `t`'s block iff each coordinate is in the block's range on its axis. -/
theorem mem_blk (t : Fin cfg1.N) (i : S96x1024x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v13).slice (win1_3.rect t)).set ↔ _
  rw [View.set_slice_whole, Rect.mem_set_unit]
  exact Iff.rfl

/-- Every group of the result is the block of the point with its number. -/
theorem cover (i : S96x1024x64.Idx) : ∃ t : Fin cfg1.N, (cfg1.win 3).flush t = true ∧ i ∈ ((cfg1.win 3).blk t).view.set := by
  have hi0 : (i 0).val < 96 := (i 0).isLt
  have hi1 : (i 1).val < 1024 := (i 1).isLt
  have hi2 : (i 2).val < 64 := (i 2).isLt
  have hN := N_1
  let t : Fin cfg1.N := ⟨(i 0).val, by show (i 0).val < grid1.N; omega⟩
  obtain ⟨a0, a1, a2, b0, b1, b2, c0, c1, c2, d0, d1, d2⟩ := idx_facts t
  have ht : t.val = (i 0).val := rfl
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- The head outputs after the region: the attention of the arrays as the region finds them. -/
theorem final (c : Dev nD) :
    (dat1 (F := Ideal) V c).arrAt 3 cfg1.N = attn σK (V c main_v10) (V c main_v11) (V c main_v12) :=
  (dat1 (F := Ideal) V c).arrAt_eq_of_cover 3 _ (fun t _ => flushed_eq V c t) cover

end Cert.KernelIdeal.Region1

end
-- ==== Proof.KValue.lean ====
/-
  The kernel program's result as one term of its three arguments.

  The input is viewed as 8192 rows; the projection region leaves the projected rows; the host views them as
  [batch, position, 3, head, feature], moves the axis of three to the front and cuts it into the query, key and
  value arrays, each viewed as 96 groups; the attention region leaves the head outputs; the host views them as
  [batch, head, position, feature], swaps heads and positions, and merges heads and features.
-/
import proofs.«164023_j66924180406850_1_alg».proof.Proof.KRun
import proofs.«164023_j66924180406850_1_alg».proof.Proof.Region0
import proofs.«164023_j66924180406850_1_alg».proof.Proof.Region1

set_option maxRecDepth 16384

noncomputable section

namespace Cert.KernelIdeal.KValue

open Cert.KernelIdeal Cert.KernelIdeal.Gen Cert.KernelIdeal.Body Cert.CausalRelu
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The projected rows viewed [batch, position, 3, head, feature]. -/
def split5 (x : S8x1024x768.Idx → EReal) (W : S2304x768.Idx → EReal) (b : S2304.Idx → EReal) : S8x1024x3x12x64.Idx → EReal :=
  shapeCast S8x1024x3x12x64 (proj (shapeCast S8192x768 x shapeCasts_S8x1024x768_S8192x768) W b) shapeCasts_S8192x2304_S8x1024x3x12x64

/-- Part `n` of the axis of three, as [batch, head, position, feature]. -/
def part (off : Fin 5 → ℕ) (hs : S3x8x12x1024x64.Slices off S1x8x12x1024x64) (a : S8x1024x3x12x64.Idx → EReal) : S8x12x1024x64.Idx → EReal :=
  shapeCast S8x12x1024x64 (extractStridedSlice S1x8x12x1024x64 off
    (transpose S3x8x12x1024x64 [2, 0, 3, 1, 4] a transposes_S8x1024x3x12x64_S3x8x12x1024x64_2_0_3_1_4) hs) shapeCasts_S1x8x12x1024x64_S8x12x1024x64

/-- The kernel program's result of its three arguments. -/
def kernelOut (x : S8x1024x768.Idx → EReal) (W : S2304x768.Idx → EReal) (b : S2304.Idx → EReal) : S8x1024x768.Idx → EReal :=
  shapeCast S8x1024x768 (transpose S8x1024x12x64 [0, 2, 1, 3]
    (shapeCast S8x12x1024x64
      (attn σK
        (shapeCast S96x1024x64 (part ![0, 0, 0, 0, 0] slices_S3x8x12x1024x64_S1x8x12x1024x64_0_0_0_0_0 (split5 x W b)) shapeCasts_S8x12x1024x64_S96x1024x64)
        (shapeCast S96x1024x64 (part ![1, 0, 0, 0, 0] slices_S3x8x12x1024x64_S1x8x12x1024x64_1_0_0_0_0 (split5 x W b)) shapeCasts_S8x12x1024x64_S96x1024x64)
        (shapeCast S96x1024x64 (part ![2, 0, 0, 0, 0] slices_S3x8x12x1024x64_S1x8x12x1024x64_2_0_0_0_0 (split5 x W b)) shapeCasts_S8x12x1024x64_S96x1024x64))
      shapeCasts_S96x1024x64_S8x12x1024x64)
    transposes_S8x12x1024x64_S8x1024x12x64_0_2_1_3) shapeCasts_S8x1024x12x64_S8x1024x768

/-- The projection region's input: the argument viewed as rows, the weights and the bias as launched. -/
theorem V1_v0 (c : Dev nD) : V1 m ρ c main_v0
    = shapeCast S8192x768 (m ((c : Thread nD τ).loc main_arg0)) shapeCasts_S8x1024x768_S8192x768 := by
  show StableHlo.after hostOps0 (W0 m ρ c) (Proc.devRef .tc main_v0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl

/-- The projected rows after the first region. -/
theorem W2_v1 (c : Dev nD) : W2 m ρ c (Proc.devRef .tc main_v1)
    = proj (shapeCast S8192x768 (m ((c : Thread nD τ).loc main_arg0)) shapeCasts_S8x1024x768_S8192x768)
        (m ((c : Thread nD τ).loc main_arg1)) (m ((c : Thread nD τ).loc main_arg2)) := by
  refine (W2_arr m ρ c 3).trans ?_
  rw [Region0.final (V1 m ρ) c, V1_v0, V1_arg1, V1_arg2]

/-- The query, key and value arrays the second region finds: the parts of the projected rows, as 96 groups. -/
theorem V3_v10 (c : Dev nD) : V3 m ρ c main_v10
    = shapeCast S96x1024x64 (part ![0, 0, 0, 0, 0] slices_S3x8x12x1024x64_S1x8x12x1024x64_0_0_0_0_0
        (split5 (m ((c : Thread nD τ).loc main_arg0)) (m ((c : Thread nD τ).loc main_arg1)) (m ((c : Thread nD τ).loc main_arg2))))
        shapeCasts_S8x12x1024x64_S96x1024x64 := by
  unfold part split5
  rw [← W2_v1 m ρ c]
  show StableHlo.after hostOps1 (W2 m ρ c) (Proc.devRef .tc main_v10) = _
  after_results <;> rfl
theorem V3_v11 (c : Dev nD) : V3 m ρ c main_v11
    = shapeCast S96x1024x64 (part ![1, 0, 0, 0, 0] slices_S3x8x12x1024x64_S1x8x12x1024x64_1_0_0_0_0
        (split5 (m ((c : Thread nD τ).loc main_arg0)) (m ((c : Thread nD τ).loc main_arg1)) (m ((c : Thread nD τ).loc main_arg2))))
        shapeCasts_S8x12x1024x64_S96x1024x64 := by
  unfold part split5
  rw [← W2_v1 m ρ c]
  show StableHlo.after hostOps1 (W2 m ρ c) (Proc.devRef .tc main_v11) = _
  after_results <;> rfl
theorem V3_v12 (c : Dev nD) : V3 m ρ c main_v12
    = shapeCast S96x1024x64 (part ![2, 0, 0, 0, 0] slices_S3x8x12x1024x64_S1x8x12x1024x64_2_0_0_0_0
        (split5 (m ((c : Thread nD τ).loc main_arg0)) (m ((c : Thread nD τ).loc main_arg1)) (m ((c : Thread nD τ).loc main_arg2))))
        shapeCasts_S8x12x1024x64_S96x1024x64 := by
  unfold part split5
  rw [← W2_v1 m ρ c]
  show StableHlo.after hostOps1 (W2 m ρ c) (Proc.devRef .tc main_v12) = _
  after_results <;> rfl

/-- The head outputs after the second region. -/
theorem W4_v13 (c : Dev nD) : W4 m ρ c (Proc.devRef .tc main_v13)
    = attn σK (V3 m ρ c main_v10) (V3 m ρ c main_v11) (V3 m ρ c main_v12) :=
  (W4_arr m ρ c 3).trans (Region1.final (V3 m ρ) c)

/-- The result buffer at the last boundary is the kernel program's term of the three arguments. -/
theorem result (c : Dev nD) : W5 m ρ c (Proc.devRef .tc main_v16)
    = kernelOut (m ((c : Thread nD τ).loc main_arg0)) (m ((c : Thread nD τ).loc main_arg1)) (m ((c : Thread nD τ).loc main_arg2)) := by
  unfold kernelOut
  rw [← V3_v10 m ρ c, ← V3_v11 m ρ c, ← V3_v12 m ρ c, ← W4_v13 m ρ c]
  show StableHlo.after hostOps2 (W4 m ρ c) (Proc.devRef .tc main_v16) = _
  after_results <;> rfl

/-- Every weakly fair execution of the kernel program terminates with its result at the program's term of
    the launch contents of the arguments, and the arguments unchanged. -/
theorem run : θ_run defs (onTc (τ := τ) (main (F := Ideal))) ⟨m, fun _ => 0, ρ⟩ (fun r => ∀ c : Dev nD,
      r.2.mem ((c.tc : Thread nD τ).loc main_v16)
        = kernelOut (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (KRun.run_named m ρ)

end Cert.KernelIdeal.KValue

end
-- ==== Proof.Consts.lean ====
/-
  The float constants of the two programs as extended reals: the reference divides one by the square root of
  sixty-four, the kernel multiplies by the word of one eighth; both are the real number 1/8.
-/
import Idealize.ShloMosaic.PureOps.Ideal

noncomputable section

namespace Cert.CausalRelu.Consts

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- One over the square root of sixty-four is the word of one eighth. -/
theorem scale_eq :
    Ideal.div (Ideal.ofBits .f32 0x3F800000#32) (Ideal.sqrt (Ideal.ofBits .f32 0x42800000#32))
      = Ideal.ofBits .f32 0x3E000000#32 := by
  rw [ofBits_64, ofBits_one, ofBits_eighth, Ideal.sqrt_coe, if_neg (by norm_num), sqrt_64,
    Ideal.div_coe (by norm_num : (8 : ℝ) ≠ 0), one_mul]

end Cert.CausalRelu.Consts

end
-- ==== Proof.Bridge.lean ====
/-
  The kernel program's term and the reference's term are one function of the three arguments.

  Both project every input row with the transposed weights and add the bias; the kernel projects the input
  viewed as 8192 rows, the reference contracts the rank-3 input directly, and the two agree once both are viewed
  [batch, position, 3, head, feature].  From there both cut the same query, key and value arrays.  The kernel
  runs the attention on 96 groups and views the result [batch, head, …]; the reference contracts over the
  batch and head axes: at (batch, head, position, feature) both are
    Σ_s w(t, s) · v(s, feature),   w(t, s) = max ((Σ_e q(t, e) · k(s, e)) · σ, 0) where s is not after t, else 0,
  the reference's σ being one over the square root of sixty-four and the kernel's the word of one eighth.
  The closing re-layout is the same on both sides.
-/
import proofs.«164023_j66924180406850_1_alg».proof.Proof.KValue
import proofs.«164023_j66924180406850_1_alg».proof.Proof.Consts
import proofs.«164023_j66924180406850_1_alg».proof.Proof.Gen.ReferenceIdeal.Read

set_option maxRecDepth 16384

noncomputable section

open scoped BigOperators

namespace Cert.Bridge

open Cert.CausalRelu Cert.KernelIdeal.Body
open Idealize.ShloMosaic Idealize.ShloMosaic.ValueIdx

/-- A rank-4 array of extended reals. -/
abbrev A4 (a b c d : ℕ) : Type := (⟨4, ![a, b, c, d]⟩ : Shape).Idx → EReal

/-- The causal rectified attention over [batch, head, position, feature] arrays, at one entry. -/
def attn4 (σ : EReal) (q k v : A4 8 12 1024 64) : A4 8 12 1024 64 :=
  fun i => ∑ s : Fin 1024,
    weight σ (∑ e : Fin 64, q (ix4 (i 0) (i 1) (i 2) e) * k (ix4 (i 0) (i 1) s e)) (i 2) s * v (ix4 (i 0) (i 1) s (i 3))

theorem attn4_apply (σ : EReal) (q k v : A4 8 12 1024 64) (bb : Fin 8) (hh : Fin 12) (t : Fin 1024) (d : Fin 64) :
    attn4 σ q k v (ix4 bb hh t d)
      = ∑ s : Fin 1024, weight σ (∑ e : Fin 64, q (ix4 bb hh t e) * k (ix4 bb hh s e)) t s * v (ix4 bb hh s d) := rfl

/-- The attention of 96 groups, viewed [batch, head, …], is the attention over [batch, head, …] arrays:
    group `12·batch + head` of each merged array is that batch entry's head. -/
theorem attn_merge (σ : EReal) (q k v : A4 8 12 1024 64)
    (h1 : (⟨4, ![8, 12, 1024, 64]⟩ : Shape).ShapeCasts ⟨3, ![96, 1024, 64]⟩)
    (h2 : (⟨3, ![96, 1024, 64]⟩ : Shape).ShapeCasts ⟨4, ![8, 12, 1024, 64]⟩) :
    shapeCast ⟨4, ![8, 12, 1024, 64]⟩ (attn σ (shapeCast ⟨3, ![96, 1024, 64]⟩ q h1) (shapeCast ⟨3, ![96, 1024, 64]⟩ k h1)
      (shapeCast ⟨3, ![96, 1024, 64]⟩ v h1)) h2 = attn4 σ q k v := by
  funext i
  obtain ⟨bb, hh, t, d, rfl⟩ : ∃ (bb : Fin 8) (hh : Fin 12) (t : Fin 1024) (d : Fin 64), i = ix4 bb hh t d :=
    ⟨i 0, i 1, i 2, i 3, eq_ix4 i⟩
  have hg : bb.val * 12 + hh.val < 96 := by have := bb.isLt; have := hh.isLt; omega
  have hc : ∀ (y : A4 8 12 1024 64) (a : Fin 1024) (e : Fin 64),
      shapeCast ⟨3, ![96, 1024, 64]⟩ y h1 (ix3 (⟨bb.val * 12 + hh.val, hg⟩ : Fin 96) a e) = y (ix4 bb hh a e) := fun y a e =>
    shapeCast_apply y h1 _ _ (by rewrite [Shape.rowMajor_val_four, Shape.rowMajor_val_three]; rfl)
  rw [shapeCast_apply _ h2 (ix4 bb hh t d) (ix3 (⟨bb.val * 12 + hh.val, hg⟩ : Fin 96) t d)
    (by rewrite [Shape.rowMajor_val_three, Shape.rowMajor_val_four]; rfl), attn_apply, attn4_apply]
  unfold attnAt
  simp only [hc]

section
open Cert.ReferenceIdeal Cert.ReferenceIdeal.Read Cert.KernelIdeal.KValue

/-- The kernel's projected rows and the reference's projected array are one array once both are viewed
    [batch, position, 3, head, feature]: entry (bb, t, s, hh, d) of either is row `1024·bb + t` of the input
    against row `(12·s + hh)·64 + d` of the weights, plus the bias there. -/
theorem split5_eq (x : S8x1024x768.Idx → EReal) (W : S2304x768.Idx → EReal) (b : S2304.Idx → EReal) :
    split5 x W b = val_main_v6 (F := Ideal) x W b := by
  funext i
  obtain ⟨bb, t, s, hh, d, rfl⟩ : ∃ (bb : Fin 8) (t : Fin 1024) (s : Fin 3) (hh : Fin 12) (d : Fin 64), i = ix5 bb t s hh d :=
    ⟨i 0, i 1, i 2, i 3, i 4, eq_ix5 i⟩
  have hb := bb.isLt; have ht := t.isLt; have hs := s.isLt; have hhh := hh.isLt; have hd := d.isLt
  have hr : bb.val * 1024 + t.val < 8192 := by omega
  have ho : (s.val * 12 + hh.val) * 64 + d.val < 2304 := by omega
  unfold split5
  rw [shapeCast_apply _ _ (ix5 bb t s hh d) (ix2 (⟨bb.val * 1024 + t.val, hr⟩ : Fin 8192) (⟨(s.val * 12 + hh.val) * 64 + d.val, ho⟩ : Fin 2304))
    (by rewrite [Shape.rowMajor_val_two, Shape.rowMajor_val_five]
        show (bb.val * 1024 + t.val) * 2304 + ((s.val * 12 + hh.val) * 64 + d.val) = (((bb.val * 1024 + t.val) * 3 + s.val) * 12 + hh.val) * 64 + d.val
        omega),
    proj_apply, val_main_v6_apply, val_main_v5_apply, val_main_v2_apply, val_main_v4_apply, val_main_v3_apply]
  unfold projAt
  refine congrArg₂ (· + ·) (Finset.sum_congr rfl fun c _ => congrArg₂ (· * ·) ?_ ?_) ?_
  · refine shapeCast_apply x _ _ _ ?_
    rewrite [Shape.rowMajor_val_three, Shape.rowMajor_val_two]
    show (((((bb.val * 1024 + t.val) * 3 + s.val) * 12 + hh.val) * 64 + d.val) / 2359296 * 1024 + ((((bb.val * 1024 + t.val) * 3 + s.val) * 12 + hh.val) * 64 + d.val) / 2304 % 1024) * 768 + c.val = (bb.val * 1024 + t.val) * 768 + c.val
    omega
  · refine congrArg W (funext fun a => Fin.ext ?_)
    match a with
    | ⟨0, _⟩ =>
      show (s.val * 12 + hh.val) * 64 + d.val = ((((bb.val * 1024 + t.val) * 3 + s.val) * 12 + hh.val) * 64 + d.val) % 2304
      omega
    | ⟨1, _⟩ => rfl
  · refine congrArg b (funext fun a => Fin.ext ?_)
    match a with
    | ⟨0, _⟩ =>
      show (s.val * 12 + hh.val) * 64 + d.val = ((((bb.val * 1024 + t.val) * 3 + s.val) * 12 + hh.val) * 64 + d.val) % 2304
      omega

/-- A one-bit choice between one and zero is the bit. -/
theorem select_bit (c : BitVec 1) : Scalar.select c (1#1 : BitVec 1) 0#1 = c := by
  rcases BitVec.eq_zero_or_eq_one c with h | h <;> subst h <;> rfl

/-- The reference's head outputs are the attention, over [batch, head, …] arrays, of its query, key and value
    arrays, with the scale the word of one eighth. -/
theorem ref_attn (x : S8x1024x768.Idx → EReal) (W : S2304x768.Idx → EReal) (b : S2304.Idx → EReal) :
    val_main_v21 (F := Ideal) x W b
      = attn4 σK (val_main_v9 (F := Ideal) x W b) (val_main_v11 (F := Ideal) x W b) (val_main_v13 (F := Ideal) x W b) := by
  funext i
  obtain ⟨bb, hh, t, d, rfl⟩ : ∃ (bb : Fin 8) (hh : Fin 12) (t : Fin 1024) (d : Fin 64), i = ix4 bb hh t d :=
    ⟨i 0, i 1, i 2, i 3, eq_ix4 i⟩
  have hl21 : ∀ s : Fin 1024, lidx_main_v21 (ix4 bb hh t d) s = ix4 bb hh t s := fun s => funext fun a => by
    match a with
    | ⟨0, _⟩ => rfl
    | ⟨1, _⟩ => rfl
    | ⟨2, _⟩ => rfl
    | ⟨3, _⟩ => rfl
  have hr21 : ∀ s : Fin 1024, ridx_main_v21 (ix4 bb hh t d) s = ix4 bb hh s d := fun s => funext fun a => by
    match a with
    | ⟨0, _⟩ => rfl
    | ⟨1, _⟩ => rfl
    | ⟨2, _⟩ => rfl
    | ⟨3, _⟩ => rfl
  have hl14 : ∀ (s : Fin 1024) (e : Fin 64), lidx_main_v14 (ix4 bb hh t s) e = ix4 bb hh t e := fun s e => funext fun a => by
    match a with
    | ⟨0, _⟩ => rfl
    | ⟨1, _⟩ => rfl
    | ⟨2, _⟩ => rfl
    | ⟨3, _⟩ => rfl
  have hr14 : ∀ (s : Fin 1024) (e : Fin 64), ridx_main_v14 (ix4 bb hh t s) e = ix4 bb hh s e := fun s e => funext fun a => by
    match a with
    | ⟨0, _⟩ => rfl
    | ⟨1, _⟩ => rfl
    | ⟨2, _⟩ => rfl
    | ⟨3, _⟩ => rfl
  have hc2 : ∀ s : Fin 1024, idx_main_call2_v0 (ix4 bb hh t s) = ix2 t s := fun s => funext fun a => by
    match a with
    | ⟨0, _⟩ => rfl
    | ⟨1, _⟩ => rfl
  rw [val_main_v21_apply, attn4_apply]
  refine Finset.sum_congr rfl fun s _ => ?_
  rw [hl21, hr21]
  refine congrArg₂ (· * ·) ?_ rfl
  rw [val_main_v20_apply, val_main_call2_v0_apply, hc2, val_main_v18_apply, val_main_call0_v4_apply, val_main_call0_v2_apply,
    val_main_call0_v0_apply, val_main_call0_v1_apply, val_main_call0_c_apply, val_main_call0_v3_apply, val_main_v17_apply,
    val_main_c_apply, val_main_call0_v5_apply, val_main_call0_c_0_apply, val_main_v19_apply, val_main_v16_apply,
    val_main_v14_apply, val_main_v15_apply, val_main_v1_apply, val_main_cst_0_apply, val_main_v0_apply, val_main_cst_apply,
    val_main_call1_v0_apply, val_main_call1_cst_apply, val_main_call2_v1_apply, val_main_cst_1_apply]
  simp only [hl14, hr14]
  show Scalar.select (Scalar.select (IntOp.cmpi .sge (IntOp.addi (BitVec.ofNat 32 t.val) 0#32) (BitVec.ofNat 32 s.val)) (1#1 : BitVec 1) 0#1)
      (max ((∑ e : Fin 64, val_main_v9 (F := Ideal) x W b (ix4 bb hh t e) * val_main_v11 (F := Ideal) x W b (ix4 bb hh s e))
          * Ideal.div (Ideal.ofBits .f32 0x3F800000#32) (Ideal.sqrt (Ideal.ofBits .f32 0x42800000#32))) (Ideal.ofBits .f32 0x00000000#32))
      (Ideal.ofBits .f32 0x00000000#32) = _
  rw [select_bit, Cert.CausalRelu.Consts.scale_eq, Ideal.ofBits_zero_f32]
  unfold weight
  rw [show IntOp.addi (BitVec.ofNat 32 t.val) 0#32 = BitVec.ofNat 32 t.val from BitVec.add_zero _]

/-- The three parts of the reference's five-axis array are its query, key and value arrays. -/
theorem part_q (x : S8x1024x768.Idx → EReal) (W : S2304x768.Idx → EReal) (b : S2304.Idx → EReal)
    (hs : Cert.KernelIdeal.S3x8x12x1024x64.Slices ![0, 0, 0, 0, 0] Cert.KernelIdeal.S1x8x12x1024x64) :
    part ![0, 0, 0, 0, 0] hs (val_main_v6 (F := Ideal) x W b) = val_main_v9 (F := Ideal) x W b := rfl
theorem part_k (x : S8x1024x768.Idx → EReal) (W : S2304x768.Idx → EReal) (b : S2304.Idx → EReal)
    (hs : Cert.KernelIdeal.S3x8x12x1024x64.Slices ![1, 0, 0, 0, 0] Cert.KernelIdeal.S1x8x12x1024x64) :
    part ![1, 0, 0, 0, 0] hs (val_main_v6 (F := Ideal) x W b) = val_main_v11 (F := Ideal) x W b := rfl
theorem part_v (x : S8x1024x768.Idx → EReal) (W : S2304x768.Idx → EReal) (b : S2304.Idx → EReal)
    (hs : Cert.KernelIdeal.S3x8x12x1024x64.Slices ![2, 0, 0, 0, 0] Cert.KernelIdeal.S1x8x12x1024x64) :
    part ![2, 0, 0, 0, 0] hs (val_main_v6 (F := Ideal) x W b) = val_main_v13 (F := Ideal) x W b := rfl

/-- The two programs' results are one function of the arguments. -/
theorem result_eq (x : S8x1024x768.Idx → EReal) (W : S2304x768.Idx → EReal) (b : S2304.Idx → EReal) :
    kernelOut x W b = val_main_v23 (F := Ideal) x W b := by
  unfold kernelOut
  rw [split5_eq, part_q, part_k, part_v, attn_merge, ← ref_attn]
  rfl

end

end Cert.Bridge

end
-- ==== Proof.lean ====
/-
  The certificate of the fused projection and causal rectified attention against its plain reference.

  The kernel program projects the 8192 input rows (weights transposed, bias added) in sixteen blocks of 512
  rows, re-lays the projected rows into per-head query, key and value arrays, computes for each of the 96
  (batch, head) groups the sum over earlier-or-equal positions of the rectified scaled scores times the values,
  and re-lays the head outputs into [batch, position, feature].  The reference does the same with whole-array
  contractions.  On the extended reals the two results are one function of the three arguments: rounding to a
  narrower float format is the identity, a matrix product into a zero accumulator is the plain sum, and the
  reference's scale, one over the square root of sixty-four, is the kernel's word of one eighth.  No law beyond
  the re-indexing of sums is used, so finiteness of the inputs is not needed for the value.
-/
import proofs.«164023_j66924180406850_1_alg».proof.Defs
import proofs.«164023_j66924180406850_1_alg».proof.Proof.Gen.Kernel
import proofs.«164023_j66924180406850_1_alg».proof.Proof.Gen.Kernel.Skeleton
import proofs.«164023_j66924180406850_1_alg».proof.Proof.Gen.Kernel.Launch
import proofs.«164023_j66924180406850_1_alg».proof.Proof.Gen.Kernel.Points
import proofs.«164023_j66924180406850_1_alg».proof.Proof.Gen.Kernel.Frame
import proofs.«164023_j66924180406850_1_alg».proof.Proof.Gen.KernelIdeal
import proofs.«164023_j66924180406850_1_alg».proof.Proof.Gen.KernelIdeal.Skeleton
import proofs.«164023_j66924180406850_1_alg».proof.Proof.Gen.KernelIdeal.Launch
import proofs.«164023_j66924180406850_1_alg».proof.Proof.Gen.KernelIdeal.Points
import proofs.«164023_j66924180406850_1_alg».proof.Proof.Gen.KernelIdeal.Frame
import proofs.«164023_j66924180406850_1_alg».proof.Proof.Gen.ReferenceIdeal
import proofs.«164023_j66924180406850_1_alg».proof.Proof.Gen.ReferenceIdeal.Run
import proofs.«164023_j66924180406850_1_alg».proof.Proof.Gen.ReferenceIdeal.Read
import proofs.«164023_j66924180406850_1_alg».proof.Proof.Gen.Pre_finite_inputs
import proofs.«164023_j66924180406850_1_alg».proof.Proof.KValue
import proofs.«164023_j66924180406850_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's at its
    term of the arguments, the reference's at its own, and the two terms are one function. -/
theorem algebraic : Cert.algebraic_KernelIdeal_ReferenceIdeal := by
  intro m ρ m' ρ' _ hagree
  refine ⟨fun c => Cert.KernelIdeal.KValue.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  exact (Cert.Bridge.result_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
